-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128x128 : Shape := ⟨4, ![64, 64, 128, 128]⟩
abbrev S_ : Shape := ⟨0, ![]⟩

class Facts : Prop where
  bcast_S_S64x64x128x128 : S_.BroadcastsInDim S64x64x128x128 (![] : Fin 0 → Fin S64x64x128x128.rank)
  reducesTo_S64x64x128x128_S_d0_1_2_3 : S64x64x128x128.ReducesTo [0, 1, 2, 3] S_
  h_S_ : 0 < S_.numel

variable [Facts]

def fn {F : FTy → Type} [FloatOps F] (main_arg0 : FVec F S64x64x128x128 .f32) : IVec S_ 1 :=
  let main_v0 : FVec F S64x64x128x128 .f32 := Host.absf main_arg0
  let main_cst : FVec F S_ .f32 := constant S_ .f32 0x7F800000#32
  let main_v1 : FVec F S64x64x128x128 .f32 := broadcastInDim S64x64x128x128 ![] bcast_S_S64x64x128x128 main_cst
  let main_v2 : IVec S64x64x128x128 1 := cmpf .olt main_v0 main_v1
  let main_c : IVec S_ 1 := constantI S_ 1 1#1
  let main_v3 : IVec S_ 1 := (fun x v => Host.reduce IntOp.andi x v reducesTo_S64x64x128x128_S_d0_1_2_3 h_S_) main_v2 main_c
  main_v3
-- ==== Kernel.lean ====
abbrev S64x64x128x128 : Shape := ⟨4, ![64, 64, 128, 128]⟩
abbrev S64x2x128x128 : Shape := ⟨4, ![64, 2, 128, 128]⟩
abbrev S1x2x128x128 : Shape := ⟨4, ![1, 2, 128, 128]⟩
abbrev S2x128x128 : Shape := ⟨3, ![2, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S64x64x128x128, .f32⟩
  | .hbm, ⟨1, _⟩ => ⟨S64x64x128x128, .f32⟩
  | .local _ .vmem, ⟨0, _⟩ => ⟨S64x2x128x128, .f32⟩
  | .local _ .vmem, ⟨1, _⟩ => ⟨S64x2x128x128, .f32⟩
  | .local _ .vmem, ⟨2, _⟩ => ⟨S64x2x128x128, .f32⟩
  | .local _ .vmem, ⟨3, _⟩ => ⟨S64x2x128x128, .f32⟩
  | _, _ => ⟨S64x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x2x128x128_S1x2x128x128_0_0_0_0 : ∀ a, (![0, 0, 0, 0] : Fin 4 → Nat) a + S1x2x128x128.size a ≤ S64x2x128x128.size a
  h_S1x2x128x128 : 0 < S1x2x128x128.numel
  shapeCasts_S1x2x128x128_S2x128x128 : S1x2x128x128.ShapeCasts S2x128x128
  shapeCasts_S2x128x128_S1x2x128x128 : S2x128x128.ShapeCasts S1x2x128x128
  inb_S64x2x128x128_S1x2x128x128_1_0_0_0 : ∀ a, (![1, 0, 0, 0] : Fin 4 → Nat) a + S1x2x128x128.size a ≤ S64x2x128x128.size a
  inb_S64x2x128x128_S1x2x128x128_2_0_0_0 : ∀ a, (![2, 0, 0, 0] : Fin 4 → Nat) a + S1x2x128x128.size a ≤ S64x2x128x128.size a
  inb_S64x2x128x128_S1x2x128x128_3_0_0_0 : ∀ a, (![3, 0, 0, 0] : Fin 4 → Nat) a + S1x2x128x128.size a ≤ S64x2x128x128.size a
  inb_S64x2x128x128_S1x2x128x128_4_0_0_0 : ∀ a, (![4, 0, 0, 0] : Fin 4 → Nat) a + S1x2x128x128.size a ≤ S64x2x128x128.size a
  inb_S64x2x128x128_S1x2x128x128_5_0_0_0 : ∀ a, (![5, 0, 0, 0] : Fin 4 → Nat) a + S1x2x128x128.size a ≤ S64x2x128x128.size a
  inb_S64x2x128x128_S1x2x128x128_6_0_0_0 : ∀ a, (![6, 0, 0, 0] : Fin 4 → Nat) a + S1x2x128x128.size a ≤ S64x2x128x128.size a
  inb_S64x2x128x128_S1x2x128x128_7_0_0_0 : ∀ a, (![7, 0, 0, 0] : Fin 4 → Nat) a + S1x2x128x128.size a ≤ S64x2x128x128.size a
  inb_S64x2x128x128_S1x2x128x128_8_0_0_0 : ∀ a, (![8, 0, 0, 0] : Fin 4 → Nat) a + S1x2x128x128.size a ≤ S64x2x128x128.size a
  inb_S64x2x128x128_S1x2x128x128_9_0_0_0 : ∀ a, (![9, 0, 0, 0] : Fin 4 → Nat) a + S1x2x128x128.size a ≤ S64x2x128x128.size a
  inb_S64x2x128x128_S1x2x128x128_10_0_0_0 : ∀ a, (![10, 0, 0, 0] : Fin 4 → Nat) a + S1x2x128x128.size a ≤ S64x2x128x128.size a
  inb_S64x2x128x128_S1x2x128x128_11_0_0_0 : ∀ a, (![11, 0, 0, 0] : Fin 4 → Nat) a + S1x2x128x128.size a ≤ S64x2x128x128.size a
  inb_S64x2x128x128_S1x2x128x128_12_0_0_0 : ∀ a, (![12, 0, 0, 0] : Fin 4 → Nat) a + S1x2x128x128.size a ≤ S64x2x128x128.size a
  inb_S64x2x128x128_S1x2x128x128_13_0_0_0 : ∀ a, (![13, 0, 0, 0] : Fin 4 → Nat) a + S1x2x128x128.size a ≤ S64x2x128x128.size a
  inb_S64x2x128x128_S1x2x128x128_14_0_0_0 : ∀ a, (![14, 0, 0, 0] : Fin 4 → Nat) a + S1x2x128x128.size a ≤ S64x2x128x128.size a
  inb_S64x2x128x128_S1x2x128x128_15_0_0_0 : ∀ a, (![15, 0, 0, 0] : Fin 4 → Nat) a + S1x2x128x128.size a ≤ S64x2x128x128.size a
  inb_S64x2x128x128_S1x2x128x128_16_0_0_0 : ∀ a, (![16, 0, 0, 0] : Fin 4 → Nat) a + S1x2x128x128.size a ≤ S64x2x128x128.size a
  inb_S64x2x128x128_S1x2x128x128_17_0_0_0 : ∀ a, (![17, 0, 0, 0] : Fin 4 → Nat) a + S1x2x128x128.size a ≤ S64x2x128x128.size a
  inb_S64x2x128x128_S1x2x128x128_18_0_0_0 : ∀ a, (![18, 0, 0, 0] : Fin 4 → Nat) a + S1x2x128x128.size a ≤ S64x2x128x128.size a
  inb_S64x2x128x128_S1x2x128x128_19_0_0_0 : ∀ a, (![19, 0, 0, 0] : Fin 4 → Nat) a + S1x2x128x128.size a ≤ S64x2x128x128.size a
  inb_S64x2x128x128_S1x2x128x128_20_0_0_0 : ∀ a, (![20, 0, 0, 0] : Fin 4 → Nat) a + S1x2x128x128.size a ≤ S64x2x128x128.size a
  inb_S64x2x128x128_S1x2x128x128_21_0_0_0 : ∀ a, (![21, 0, 0, 0] : Fin 4 → Nat) a + S1x2x128x128.size a ≤ S64x2x128x128.size a
  inb_S64x2x128x128_S1x2x128x128_22_0_0_0 : ∀ a, (![22, 0, 0, 0] : Fin 4 → Nat) a + S1x2x128x128.size a ≤ S64x2x128x128.size a
  inb_S64x2x128x128_S1x2x128x128_23_0_0_0 : ∀ a, (![23, 0, 0, 0] : Fin 4 → Nat) a + S1x2x128x128.size a ≤ S64x2x128x128.size a
  inb_S64x2x128x128_S1x2x128x128_24_0_0_0 : ∀ a, (![24, 0, 0, 0] : Fin 4 → Nat) a + S1x2x128x128.size a ≤ S64x2x128x128.size a
  inb_S64x2x128x128_S1x2x128x128_25_0_0_0 : ∀ a, (![25, 0, 0, 0] : Fin 4 → Nat) a + S1x2x128x128.size a ≤ S64x2x128x128.size a
  inb_S64x2x128x128_S1x2x128x128_26_0_0_0 : ∀ a, (![26, 0, 0, 0] : Fin 4 → Nat) a + S1x2x128x128.size a ≤ S64x2x128x128.size a
  inb_S64x2x128x128_S1x2x128x128_27_0_0_0 : ∀ a, (![27, 0, 0, 0] : Fin 4 → Nat) a + S1x2x128x128.size a ≤ S64x2x128x128.size a
  inb_S64x2x128x128_S1x2x128x128_28_0_0_0 : ∀ a, (![28, 0, 0, 0] : Fin 4 → Nat) a + S1x2x128x128.size a ≤ S64x2x128x128.size a
  inb_S64x2x128x128_S1x2x128x128_29_0_0_0 : ∀ a, (![29, 0, 0, 0] : Fin 4 → Nat) a + S1x2x128x128.size a ≤ S64x2x128x128.size a
  inb_S64x2x128x128_S1x2x128x128_30_0_0_0 : ∀ a, (![30, 0, 0, 0] : Fin 4 → Nat) a + S1x2x128x128.size a ≤ S64x2x128x128.size a
  inb_S64x2x128x128_S1x2x128x128_31_0_0_0 : ∀ a, (![31, 0, 0, 0] : Fin 4 → Nat) a + S1x2x128x128.size a ≤ S64x2x128x128.size a
  inb_S64x2x128x128_S1x2x128x128_32_0_0_0 : ∀ a, (![32, 0, 0, 0] : Fin 4 → Nat) a + S1x2x128x128.size a ≤ S64x2x128x128.size a
  inb_S64x2x128x128_S1x2x128x128_33_0_0_0 : ∀ a, (![33, 0, 0, 0] : Fin 4 → Nat) a + S1x2x128x128.size a ≤ S64x2x128x128.size a
  inb_S64x2x128x128_S1x2x128x128_34_0_0_0 : ∀ a, (![34, 0, 0, 0] : Fin 4 → Nat) a + S1x2x128x128.size a ≤ S64x2x128x128.size a
  inb_S64x2x128x128_S1x2x128x128_35_0_0_0 : ∀ a, (![35, 0, 0, 0] : Fin 4 → Nat) a + S1x2x128x128.size a ≤ S64x2x128x128.size a
  inb_S64x2x128x128_S1x2x128x128_36_0_0_0 : ∀ a, (![36, 0, 0, 0] : Fin 4 → Nat) a + S1x2x128x128.size a ≤ S64x2x128x128.size a
  inb_S64x2x128x128_S1x2x128x128_37_0_0_0 : ∀ a, (![37, 0, 0, 0] : Fin 4 → Nat) a + S1x2x128x128.size a ≤ S64x2x128x128.size a
  inb_S64x2x128x128_S1x2x128x128_38_0_0_0 : ∀ a, (![38, 0, 0, 0] : Fin 4 → Nat) a + S1x2x128x128.size a ≤ S64x2x128x128.size a
  inb_S64x2x128x128_S1x2x128x128_39_0_0_0 : ∀ a, (![39, 0, 0, 0] : Fin 4 → Nat) a + S1x2x128x128.size a ≤ S64x2x128x128.size a
  inb_S64x2x128x128_S1x2x128x128_40_0_0_0 : ∀ a, (![40, 0, 0, 0] : Fin 4 → Nat) a + S1x2x128x128.size a ≤ S64x2x128x128.size a
  inb_S64x2x128x128_S1x2x128x128_41_0_0_0 : ∀ a, (![41, 0, 0, 0] : Fin 4 → Nat) a + S1x2x128x128.size a ≤ S64x2x128x128.size a
  inb_S64x2x128x128_S1x2x128x128_42_0_0_0 : ∀ a, (![42, 0, 0, 0] : Fin 4 → Nat) a + S1x2x128x128.size a ≤ S64x2x128x128.size a
  inb_S64x2x128x128_S1x2x128x128_43_0_0_0 : ∀ a, (![43, 0, 0, 0] : Fin 4 → Nat) a + S1x2x128x128.size a ≤ S64x2x128x128.size a
  inb_S64x2x128x128_S1x2x128x128_44_0_0_0 : ∀ a, (![44, 0, 0, 0] : Fin 4 → Nat) a + S1x2x128x128.size a ≤ S64x2x128x128.size a
  inb_S64x2x128x128_S1x2x128x128_45_0_0_0 : ∀ a, (![45, 0, 0, 0] : Fin 4 → Nat) a + S1x2x128x128.size a ≤ S64x2x128x128.size a
  inb_S64x2x128x128_S1x2x128x128_46_0_0_0 : ∀ a, (![46, 0, 0, 0] : Fin 4 → Nat) a + S1x2x128x128.size a ≤ S64x2x128x128.size a
  inb_S64x2x128x128_S1x2x128x128_47_0_0_0 : ∀ a, (![47, 0, 0, 0] : Fin 4 → Nat) a + S1x2x128x128.size a ≤ S64x2x128x128.size a
  inb_S64x2x128x128_S1x2x128x128_48_0_0_0 : ∀ a, (![48, 0, 0, 0] : Fin 4 → Nat) a + S1x2x128x128.size a ≤ S64x2x128x128.size a
  inb_S64x2x128x128_S1x2x128x128_49_0_0_0 : ∀ a, (![49, 0, 0, 0] : Fin 4 → Nat) a + S1x2x128x128.size a ≤ S64x2x128x128.size a
  inb_S64x2x128x128_S1x2x128x128_50_0_0_0 : ∀ a, (![50, 0, 0, 0] : Fin 4 → Nat) a + S1x2x128x128.size a ≤ S64x2x128x128.size a
  inb_S64x2x128x128_S1x2x128x128_51_0_0_0 : ∀ a, (![51, 0, 0, 0] : Fin 4 → Nat) a + S1x2x128x128.size a ≤ S64x2x128x128.size a
  inb_S64x2x128x128_S1x2x128x128_52_0_0_0 : ∀ a, (![52, 0, 0, 0] : Fin 4 → Nat) a + S1x2x128x128.size a ≤ S64x2x128x128.size a
  inb_S64x2x128x128_S1x2x128x128_53_0_0_0 : ∀ a, (![53, 0, 0, 0] : Fin 4 → Nat) a + S1x2x128x128.size a ≤ S64x2x128x128.size a
  inb_S64x2x128x128_S1x2x128x128_54_0_0_0 : ∀ a, (![54, 0, 0, 0] : Fin 4 → Nat) a + S1x2x128x128.size a ≤ S64x2x128x128.size a
  inb_S64x2x128x128_S1x2x128x128_55_0_0_0 : ∀ a, (![55, 0, 0, 0] : Fin 4 → Nat) a + S1x2x128x128.size a ≤ S64x2x128x128.size a
  inb_S64x2x128x128_S1x2x128x128_56_0_0_0 : ∀ a, (![56, 0, 0, 0] : Fin 4 → Nat) a + S1x2x128x128.size a ≤ S64x2x128x128.size a
  inb_S64x2x128x128_S1x2x128x128_57_0_0_0 : ∀ a, (![57, 0, 0, 0] : Fin 4 → Nat) a + S1x2x128x128.size a ≤ S64x2x128x128.size a
  inb_S64x2x128x128_S1x2x128x128_58_0_0_0 : ∀ a, (![58, 0, 0, 0] : Fin 4 → Nat) a + S1x2x128x128.size a ≤ S64x2x128x128.size a
  inb_S64x2x128x128_S1x2x128x128_59_0_0_0 : ∀ a, (![59, 0, 0, 0] : Fin 4 → Nat) a + S1x2x128x128.size a ≤ S64x2x128x128.size a
  inb_S64x2x128x128_S1x2x128x128_60_0_0_0 : ∀ a, (![60, 0, 0, 0] : Fin 4 → Nat) a + S1x2x128x128.size a ≤ S64x2x128x128.size a
  inb_S64x2x128x128_S1x2x128x128_61_0_0_0 : ∀ a, (![61, 0, 0, 0] : Fin 4 → Nat) a + S1x2x128x128.size a ≤ S64x2x128x128.size a
  inb_S64x2x128x128_S1x2x128x128_62_0_0_0 : ∀ a, (![62, 0, 0, 0] : Fin 4 → Nat) a + S1x2x128x128.size a ≤ S64x2x128x128.size a
  inb_S64x2x128x128_S1x2x128x128_63_0_0_0 : ∀ a, (![63, 0, 0, 0] : Fin 4 → Nat) a + S1x2x128x128.size a ≤ S64x2x128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2x128x128.size a ≤ S64x64x128x128.size a
  hwx0_0 : ∀ i : grid0.Coords, EltTy.bits .f32 = 32 ∨ (Rect.block (s := S64x64x128x128) S64x2x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2x128x128.size a ≤ S64x64x128x128.size a
  hwx0_1 : ∀ i : grid0.Coords, EltTy.bits .f32 = 32 ∨ (Rect.block (s := S64x64x128x128) S64x2x128x128.size (cc0_transform_1 i) (hinb0_1 i)).WholeWords (EltTy.packing .f32)

variable [Facts₀]

abbrev win0_0 : Pipeline.Window sig grid0 :=
  Pipeline.Window.ofSpec (Memref.whole main_arg0) S64x2x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x2x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x128x128 : Shape := ⟨4, ![64, 64, 128, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S64x64x128x128, .f32⟩
  | .hbm, ⟨1, _⟩ => ⟨S_, .f32⟩
  | .hbm, ⟨2, _⟩ => ⟨S_, .f32⟩
  | .hbm, ⟨3, _⟩ => ⟨S64x64x128x128, .f32⟩
  | _, _ => ⟨S64x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S64x64x128x128_S64x64x128x128_w64s1p63_0_w1s1p0_0_w1s1p0_0_w1s1p0_0 : S64x64x128x128.ReduceWindows (![64, 1, 1, 1] : Fin 4 → Nat) ![1, 1, 1, 1] ![63, 0, 0, 0] ![0, 0, 0, 0] S64x64x128x128
  h_S_ : 0 < S_.numel

variable [Facts₀]

class Facts : Prop extends Facts₀ where

variable [Facts]
-- ==== Proof.LibCumMax.lean ====
/-
  Running maxima along the LEADING axis of a rank-4 array of extended reals.

  The function: cummax0 x at (n, a, b, c) is the largest of x (0, a, b, c), …, x (n, a, b, c) — the supremum of
  a finite, non-empty prefix of a column, so it is attained and nothing about finiteness of the entries is needed.
  Three ways of computing it are shown to give that function:
    * the RECURRENCE r 0 = f 0, r (k + 1) = max (r k) (f (k + 1))  (runMax, runMax_eq_sup);
    * a LEFT FOLD of max from the bottom element over any finite family (foldl_max_finRange);
    * a WINDOWED maximum: windows of the axis' full length N along axis 0 (length 1 on the other axes), stride 1, the
      array padded with N - 1 copies of the bottom element in front, folded from the bottom element — how a cumulative
      maximum along axis 0 is written as a reduce_window (reduceWindow_max_axis0). Window position k of output row n
      is padding exactly when n + k < N - 1 and otherwise row n + k - (N - 1) ≤ n, and every row ≤ n is met.
  The f32 word 0xFF800000 is the bottom element (ofBits_neg_inf): what such a fold starts from.
  Last, cummax0 commutes with cutting the array into blocks that keep the leading axis whole (cummax0_block): the
  maximum down a column only ever looks at that column.
-/
import Idealize.ShloMosaic.PureOps.Ideal
import Idealize.ShloMosaic.Lib.ValueIdx

noncomputable section

namespace Cert.LibCumMax

open Idealize.ShloMosaic Idealize.ShloMosaic.ValueIdx

/-! ## Order facts -/

section Order

variable {α : Type*} [LinearOrder α] [OrderBot α]

/-- The running maximum of a sequence: the first entry, then each next entry against the maximum so far. -/
def runMax (f : ℕ → α) : ℕ → α
  | 0 => f 0
  | n + 1 => max (runMax f n) (f (n + 1))

/-- The running maximum after entry n is the supremum of entries 0, …, n. -/
theorem runMax_eq_sup (f : ℕ → α) (n : ℕ) : runMax f n = (Finset.range (n + 1)).sup f := by
  induction n with
  | zero => simp [runMax]
  | succ n ih =>
    rw [runMax, ih, Finset.range_add_one (n := n + 1), Finset.sup_insert, max_comm]

/-- A left fold of max over a list, from any start, is the start against the supremum of the list's entries. -/
theorem foldl_max_eq {ι : Type*} [DecidableEq ι] (g : ι → α) :
    ∀ (l : List ι) (v : α), l.foldl (fun r k => max r (g k)) v = max v (l.toFinset.sup g)
  | [], v => by simp
  | a :: l, v => by
    rw [List.foldl_cons, foldl_max_eq g l, List.toFinset_cons, Finset.sup_insert, max_assoc]

/-- Folded from the bottom over ALL of a finite index set, it is the supremum of the family. -/
theorem foldl_max_finRange (N : ℕ) (g : Fin N → α) :
    (List.finRange N).foldl (fun r k => max r (g k)) ⊥ = Finset.univ.sup g := by
  rw [foldl_max_eq g, List.toFinset_finRange, max_bot_left]

end Order

/-- The f32 word 0xFF800000 (sign set, exponent all ones, no fraction) is minus infinity: the bottom element. -/
theorem ofBits_neg_inf : Ideal.ofBits .f32 0xFF800000#32 = (⊥ : EReal) := by simp [Ideal.ofBits, Ideal.ieee]

/-! ## The function -/

section Fun

variable {N A B C : ℕ}

/-- At (n, a, b, c): the largest of x (0, a, b, c), …, x (n, a, b, c). -/
def cummax0 (x : (⟨4, ![N, A, B, C]⟩ : Shape).Idx → EReal) : (⟨4, ![N, A, B, C]⟩ : Shape).Idx → EReal :=
  fun j => (Finset.univ.filter fun i : Fin N => i.val ≤ (j 0).val).sup fun i => x (ix4 i (j 1) (j 2) (j 3))

theorem cummax0_apply (x : (⟨4, ![N, A, B, C]⟩ : Shape).Idx → EReal) (n : Fin N) (a : Fin A) (b : Fin B) (c : Fin C) :
    cummax0 x (ix4 n a b c) = (Finset.univ.filter fun i : Fin N => i.val ≤ n.val).sup fun i => x (ix4 i a b c) := rfl

/-- The column through (a, b, c) as a sequence: row i while i < N, the bottom element past the last row. -/
def col (x : (⟨4, ![N, A, B, C]⟩ : Shape).Idx → EReal) (a : Fin A) (b : Fin B) (c : Fin C) : ℕ → EReal :=
  fun i => if h : i < N then x (ix4 ⟨i, h⟩ a b c) else ⊥

theorem col_lt (x : (⟨4, ![N, A, B, C]⟩ : Shape).Idx → EReal) (a : Fin A) (b : Fin B) (c : Fin C) (i : ℕ) (h : i < N) :
    col x a b c i = x (ix4 ⟨i, h⟩ a b c) := dif_pos h

/-- The running maximum down a column, after row n, is cummax0 at (n, a, b, c). -/
theorem runMax_col (x : (⟨4, ![N, A, B, C]⟩ : Shape).Idx → EReal) (n : Fin N) (a : Fin A) (b : Fin B) (c : Fin C) :
    runMax (col x a b c) n.val = cummax0 x (ix4 n a b c) := by
  rw [runMax_eq_sup, cummax0_apply]
  apply le_antisymm
  · refine Finset.sup_le fun i hi => ?_
    have hi' : i < n.val + 1 := Finset.mem_range.mp hi
    have hN : i < N := by have := n.isLt; omega
    rw [col_lt x a b c i hN]
    exact Finset.le_sup (f := fun i : Fin N => x (ix4 i a b c))
      (Finset.mem_filter.mpr ⟨Finset.mem_univ _, by show i ≤ n.val; omega⟩)
  · refine Finset.sup_le fun i hi => ?_
    have hi' : i.val ≤ n.val := (Finset.mem_filter.mp hi).2
    have e : x (ix4 i a b c) = col x a b c i.val := (col_lt x a b c i.val i.isLt).symm
    rw [e]
    exact Finset.le_sup (f := col x a b c) (Finset.mem_range.mpr (by omega))

/-- A windowed maximum along the leading axis — windows of the axis' whole length, stride one, lo0 = N - 1 copies of
    the bottom element padded in front, folded from the bottom element — is cummax0. -/
theorem reduceWindow_max_axis0 {lo0 : ℕ} (hlo : lo0 + 1 = N) (f : EReal → EReal → EReal) (hf : ∀ p q, f p q = max p q)
    (x : (⟨4, ![N, A, B, C]⟩ : Shape).Idx → EReal) {u : Shape} (init : u.Idx → EReal)
    (h : (⟨4, ![N, A, B, C]⟩ : Shape).ReduceWindows ![N, 1, 1, 1] ![1, 1, 1, 1] ![lo0, 0, 0, 0] ![0, 0, 0, 0] ⟨4, ![N, A, B, C]⟩)
    (hu : 0 < u.numel) (hinit : init (Shape.Idx.first hu) = ⊥) :
    Host.reduceWindow f ![N, 1, 1, 1] ![1, 1, 1, 1] ![lo0, 0, 0, 0] ![0, 0, 0, 0] x init h hu = cummax0 x := by
  obtain rfl : f = fun p q => max p q := funext fun p => funext fun q => hf p q
  funext j
  obtain ⟨n, a, b, c, rfl⟩ : ∃ n a b c, j = ix4 n a b c := ⟨j 0, j 1, j 2, j 3, eq_ix4 j⟩
  unfold Host.reduceWindow
  dsimp only
  rw [hinit, foldl_max_finRange]
  rw [cummax0_apply]
  apply le_antisymm
  · -- every window position reads padding (the bottom) or a row i ≤ n of the column
    refine Finset.sup_le fun k _ => ?_
    have hw0 : ((⟨4, ![N, 1, 1, 1]⟩ : Shape).rowMajor.symm k 0).val < N := ((⟨4, ![N, 1, 1, 1]⟩ : Shape).rowMajor.symm k 0).isLt
    have hw1 : ((⟨4, ![N, 1, 1, 1]⟩ : Shape).rowMajor.symm k 1).val < 1 := ((⟨4, ![N, 1, 1, 1]⟩ : Shape).rowMajor.symm k 1).isLt
    have hw2 : ((⟨4, ![N, 1, 1, 1]⟩ : Shape).rowMajor.symm k 2).val < 1 := ((⟨4, ![N, 1, 1, 1]⟩ : Shape).rowMajor.symm k 2).isLt
    have hw3 : ((⟨4, ![N, 1, 1, 1]⟩ : Shape).rowMajor.symm k 3).val < 1 := ((⟨4, ![N, 1, 1, 1]⟩ : Shape).rowMajor.symm k 3).isLt
    split
    · rename_i hin
      have h0 : lo0 ≤ n.val * 1 + ((⟨4, ![N, 1, 1, 1]⟩ : Shape).rowMajor.symm k 0).val
          ∧ n.val * 1 + ((⟨4, ![N, 1, 1, 1]⟩ : Shape).rowMajor.symm k 0).val - lo0 < N := hin 0
      have hlt : n.val + ((⟨4, ![N, 1, 1, 1]⟩ : Shape).rowMajor.symm k 0).val - lo0 < N := by omega
      refine le_trans (le_of_eq (congrArg x ?_))
        (Finset.le_sup (f := fun i : Fin N => x (ix4 i a b c)) (b := ⟨n.val + ((⟨4, ![N, 1, 1, 1]⟩ : Shape).rowMajor.symm k 0).val - lo0, hlt⟩)
          (Finset.mem_filter.mpr ⟨Finset.mem_univ _, by
            show n.val + ((⟨4, ![N, 1, 1, 1]⟩ : Shape).rowMajor.symm k 0).val - lo0 ≤ n.val; omega⟩))
      funext d
      apply Fin.ext
      match d with
      | ⟨0, _⟩ => show n.val * 1 + ((⟨4, ![N, 1, 1, 1]⟩ : Shape).rowMajor.symm k 0).val - lo0 = n.val + ((⟨4, ![N, 1, 1, 1]⟩ : Shape).rowMajor.symm k 0).val - lo0; omega
      | ⟨1, _⟩ => show a.val * 1 + ((⟨4, ![N, 1, 1, 1]⟩ : Shape).rowMajor.symm k 1).val - 0 = a.val; omega
      | ⟨2, _⟩ => show b.val * 1 + ((⟨4, ![N, 1, 1, 1]⟩ : Shape).rowMajor.symm k 2).val - 0 = b.val; omega
      | ⟨3, _⟩ => show c.val * 1 + ((⟨4, ![N, 1, 1, 1]⟩ : Shape).rowMajor.symm k 3).val - 0 = c.val; omega
    · exact bot_le
  · -- every row i ≤ n is read, by window position lo0 + i - n
    refine Finset.sup_le fun i hi => ?_
    have hi' : i.val ≤ n.val := (Finset.mem_filter.mp hi).2
    have hn : n.val < N := n.isLt
    have ha : a.val < A := a.isLt
    have hb : b.val < B := b.isLt
    have hc : c.val < C := c.isLt
    have hk : lo0 + i.val - n.val < N := by omega
    refine le_trans ?_ (Finset.le_sup (Finset.mem_univ ((⟨4, ![N, 1, 1, 1]⟩ : Shape).rowMajor
      (ix4 (⟨lo0 + i.val - n.val, hk⟩ : Fin N) (0 : Fin 1) (0 : Fin 1) (0 : Fin 1)))))
    have e := Equiv.symm_apply_apply (⟨4, ![N, 1, 1, 1]⟩ : Shape).rowMajor
      (ix4 (⟨lo0 + i.val - n.val, hk⟩ : Fin N) (0 : Fin 1) (0 : Fin 1) (0 : Fin 1))
    have e0 : ((⟨4, ![N, 1, 1, 1]⟩ : Shape).rowMajor.symm ((⟨4, ![N, 1, 1, 1]⟩ : Shape).rowMajor
      (ix4 (⟨lo0 + i.val - n.val, hk⟩ : Fin N) (0 : Fin 1) (0 : Fin 1) (0 : Fin 1))) 0).val = lo0 + i.val - n.val := by rw [e]; rfl
    have e1 : ((⟨4, ![N, 1, 1, 1]⟩ : Shape).rowMajor.symm ((⟨4, ![N, 1, 1, 1]⟩ : Shape).rowMajor
      (ix4 (⟨lo0 + i.val - n.val, hk⟩ : Fin N) (0 : Fin 1) (0 : Fin 1) (0 : Fin 1))) 1).val = 0 := by rw [e]; rfl
    have e2 : ((⟨4, ![N, 1, 1, 1]⟩ : Shape).rowMajor.symm ((⟨4, ![N, 1, 1, 1]⟩ : Shape).rowMajor
      (ix4 (⟨lo0 + i.val - n.val, hk⟩ : Fin N) (0 : Fin 1) (0 : Fin 1) (0 : Fin 1))) 2).val = 0 := by rw [e]; rfl
    have e3 : ((⟨4, ![N, 1, 1, 1]⟩ : Shape).rowMajor.symm ((⟨4, ![N, 1, 1, 1]⟩ : Shape).rowMajor
      (ix4 (⟨lo0 + i.val - n.val, hk⟩ : Fin N) (0 : Fin 1) (0 : Fin 1) (0 : Fin 1))) 3).val = 0 := by rw [e]; rfl
    clear e
    generalize (⟨4, ![N, 1, 1, 1]⟩ : Shape).rowMajor
      (ix4 (⟨lo0 + i.val - n.val, hk⟩ : Fin N) (0 : Fin 1) (0 : Fin 1) (0 : Fin 1)) = k at e0 e1 e2 e3 ⊢
    split
    · refine le_of_eq (congrArg x ?_)
      funext d
      apply Fin.ext
      match d with
      | ⟨0, _⟩ => show i.val = n.val * 1 + ((⟨4, ![N, 1, 1, 1]⟩ : Shape).rowMajor.symm k 0).val - lo0; omega
      | ⟨1, _⟩ => show a.val = a.val * 1 + ((⟨4, ![N, 1, 1, 1]⟩ : Shape).rowMajor.symm k 1).val - 0; omega
      | ⟨2, _⟩ => show b.val = b.val * 1 + ((⟨4, ![N, 1, 1, 1]⟩ : Shape).rowMajor.symm k 2).val - 0; omega
      | ⟨3, _⟩ => show c.val = c.val * 1 + ((⟨4, ![N, 1, 1, 1]⟩ : Shape).rowMajor.symm k 3).val - 0; omega
    · rename_i hin
      exfalso
      apply hin
      intro d
      match d with
      | ⟨0, _⟩ =>
        show lo0 ≤ n.val * 1 + ((⟨4, ![N, 1, 1, 1]⟩ : Shape).rowMajor.symm k 0).val
          ∧ n.val * 1 + ((⟨4, ![N, 1, 1, 1]⟩ : Shape).rowMajor.symm k 0).val - lo0 < N
        omega
      | ⟨1, _⟩ =>
        show 0 ≤ a.val * 1 + ((⟨4, ![N, 1, 1, 1]⟩ : Shape).rowMajor.symm k 1).val
          ∧ a.val * 1 + ((⟨4, ![N, 1, 1, 1]⟩ : Shape).rowMajor.symm k 1).val - 0 < A
        omega
      | ⟨2, _⟩ =>
        show 0 ≤ b.val * 1 + ((⟨4, ![N, 1, 1, 1]⟩ : Shape).rowMajor.symm k 2).val
          ∧ b.val * 1 + ((⟨4, ![N, 1, 1, 1]⟩ : Shape).rowMajor.symm k 2).val - 0 < B
        omega
      | ⟨3, _⟩ =>
        show 0 ≤ c.val * 1 + ((⟨4, ![N, 1, 1, 1]⟩ : Shape).rowMajor.symm k 3).val
          ∧ c.val * 1 + ((⟨4, ![N, 1, 1, 1]⟩ : Shape).rowMajor.symm k 3).val - 0 < C
        omega

/-- cummax0 commutes with cutting out a block that keeps the leading axis whole: if the block's entry (i, a, b, c) is
    the array's entry (i, ea a, eb b, ec c) for every row i, then cummax0 of the block at (n, a, b, c) is cummax0 of the
    array at (n, ea a, eb b, ec c) — the maximum down a column looks at that column only. -/
theorem cummax0_block {A' B' C' : ℕ} (X : (⟨4, ![N, A', B', C']⟩ : Shape).Idx → EReal)
    (x0 : (⟨4, ![N, A, B, C]⟩ : Shape).Idx → EReal) (ea : Fin A → Fin A') (eb : Fin B → Fin B') (ec : Fin C → Fin C')
    (hx : ∀ (i : Fin N) (a : Fin A) (b : Fin B) (c : Fin C), x0 (ix4 i a b c) = X (ix4 i (ea a) (eb b) (ec c)))
    (n : Fin N) (a : Fin A) (b : Fin B) (c : Fin C) :
    cummax0 x0 (ix4 n a b c) = cummax0 X (ix4 n (ea a) (eb b) (ec c)) := by
  rw [cummax0_apply, cummax0_apply]
  exact Finset.sup_congr rfl fun i _ => hx i a b c

end Fun

end Cert.LibCumMax

end
-- ==== Proof.Body.lean ====
/-
  What the kernel body leaves in its output block: the cumulative maximum of the input block down its rows.

  The body works on one block x0 : [64, 2, 128, 128] (all 64 rows of two channels). It loads row 0 and stores it as
  row 0 of the output; then for k = 1, …, 63 it loads row k, takes the elementwise maximum with the value it carries,
  stores that as row k of the output and carries it on. (A [1, 2, 128, 128] row is viewed as [2, 128, 128] for the
  arithmetic and back for the store; both views keep every entry where it is.) So the value stored in row k is, at
  (a, b, c), the running maximum of the column x0 (·, a, b, c) after entry k, which is the largest of entries
  0, …, k: cummax0 x0 at (k, a, b, c). The 64 stores tile the block, one row each, so the block ends as cummax0 x0.
-/
import proofs.«166675_j6837587935357_2_alg».proof.Proof.Gen.KernelIdeal.Frame
import proofs.«166675_j6837587935357_2_alg».proof.Proof.LibCumMax
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.LibCumMax

/-- A load of row k of the block reads, at (0, a, b, c), the block's entry (k, a, b, c): entry k of the column
    through (a, b, c). -/
theorem ld_row (x0 : Vec Ideal S64x2x128x128 .f32) (k : ℕ)
    (inb : ∀ d, (![k, 0, 0, 0] : Fin S64x2x128x128.rank → ℕ) d + S1x2x128x128.size d ≤ S64x2x128x128.size d)
    (a : Fin 2) (b c : Fin 128) :
    View.ld x0 (Rect.unit (s := S64x2x128x128) ![k, 0, 0, 0] S1x2x128x128.size inb) (ix4 (0 : Fin 1) a b c)
      = col x0 a b c k := by
  have hk : k < 64 := by have : k + 1 ≤ 64 := inb 0; omega
  rw [col_lt x0 a b c k hk]
  show x0 _ = x0 _
  refine congrArg x0 ?_
  funext d
  apply Fin.ext
  match d with
  | ⟨0, _⟩ => show k + 1 * 0 = k; omega
  | ⟨1, _⟩ => show 0 + 1 * a.val = a.val; omega
  | ⟨2, _⟩ => show 0 + 1 * b.val = b.val; omega
  | ⟨3, _⟩ => show 0 + 1 * c.val = c.val; omega

/-- A store into row k whose payload is, at (0, a, b, c), the running maximum of the column through (a, b, c) after
    entry k, stores row k of cummax0 x0. -/
theorem piece_ok (x0 : Vec Ideal S64x2x128x128 .f32) (k : ℕ)
    (inb : ∀ d, (![k, 0, 0, 0] : Fin S64x2x128x128.rank → ℕ) d + S1x2x128x128.size d ≤ S64x2x128x128.size d)
    (pay : FVec Ideal S1x2x128x128 .f32)
    (hpay : ∀ (a : Fin 2) (b c : Fin 128), pay (ix4 (0 : Fin 1) a b c) = runMax (col x0 a b c) k) :
    ∀ y : (Rect.unit (s := S64x2x128x128) ![k, 0, 0, 0] S1x2x128x128.size inb).shape.Idx,
      pay y = cummax0 x0 ((Rect.unit (s := S64x2x128x128) ![k, 0, 0, 0] S1x2x128x128.size inb).emb y) := by
  intro (y : S1x2x128x128.Idx)
  have hk : k < 64 := by have : k + 1 ≤ 64 := inb 0; omega
  obtain ⟨u, a, b, c, rfl⟩ : ∃ (u : Fin 1) (a : Fin 2) (b c : Fin 128), y = ix4 u a b c :=
    ⟨y 0, y 1, y 2, y 3, eq_ix4 y⟩
  obtain rfl : u = 0 := Subsingleton.elim _ _
  refine (hpay a b c).trans ((runMax_col x0 ⟨k, hk⟩ a b c).trans (congrArg (cummax0 x0) ?_))
  funext d
  apply Fin.ext
  match d with
  | ⟨0, _⟩ => show k = k + 1 * 0; omega
  | ⟨1, _⟩ => show a.val = 0 + 1 * a.val; omega
  | ⟨2, _⟩ => show b.val = 0 + 1 * b.val; omega
  | ⟨3, _⟩ => show c.val = 0 + 1 * c.val; omega

/-- The output block after the body is the cumulative maximum of the input block down its rows. -/
theorem out_eq (x0 : Vec Ideal S64x2x128x128 .f32) : out0_1 x0 = cummax0 x0 := by
  funext y
  unfold out0_1
  refine View.canon_apply_of_pieces (Val := Elt Ideal) (cummax0 x0 : Vec Ideal S64x2x128x128 .f32) _ ?_ y (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  simp only [List.forall_mem_cons]
  have hld : ∀ (k : ℕ)
      (inb : ∀ d, (![k, 0, 0, 0] : Fin S64x2x128x128.rank → ℕ) d + S1x2x128x128.size d ≤ S64x2x128x128.size d)
      (a : Fin 2) (b c : Fin 128),
      View.ld x0 (Rect.unit (s := S64x2x128x128) ![k, 0, 0, 0] S1x2x128x128.size inb) (ix4 (0 : Fin 1) a b c)
        = col x0 a b c k := ld_row x0
  repeat' apply And.intro
  all_goals first
    | (intro p hp; cases hp)
    | (refine piece_ok x0 _ _ _ fun a b c => ?_
       simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128,
         shapeCast_abc_1abc_apply, shapeCast_1abc_abc_apply, maximumf_apply, hld, runMax, Nat.reduceAdd])

end Cert.KernelIdeal.Body

end
-- ==== Proof.KValue.lean ====
/-
  The kernel's result array: the cumulative maximum of its argument along axis 0.

  The grid has 32 points. Point t stages channels 2t and 2t + 1 of the argument X : [64, 64, 128, 128] — all 64 rows,
  all of the last two axes — runs the body on that block, and writes the body's output block back to the same place of
  the result. The body turns a block into its cumulative maximum down the rows, and a cumulative maximum down a column
  looks at that column only, so what point t writes back is the block (·, 2t + ·, ·, ·) of cummax0 X. Every channel
  c is in exactly one point's block (point c / 2), so the blocks fill the result and it ends as cummax0 X.
-/
import proofs.«166675_j6837587935357_2_alg».proof.Proof.Gen.KernelIdeal.Value
import proofs.«166675_j6837587935357_2_alg».proof.Proof.Body

noncomputable section

namespace Cert.KernelIdeal.KValue

open Cert.KernelIdeal Cert.KernelIdeal.Gen Idealize.ShloMosaic Idealize.ShloMosaic.TcCoe Idealize.SL.Sem
open Idealize.ShloMosaic.ValueIdx Cert.LibCumMax
open Idealize.ShloMosaic.Pipeline (Dat)

variable (m : (ℓ : Loc nD τ sig) → Buf (Elt Ideal) ℓ) (ρ : Dev nD → PrngReg)

/-- The index maps, decided over the 32 grid points: at point t both windows sit at block (0, t, 0, 0). -/
theorem idx_facts : ∀ t : Fin cfg0.N,
    win0_0.index t (0 : Fin 4) = 0 ∧ win0_0.index t (1 : Fin 4) = t.val
    ∧ win0_0.index t (2 : Fin 4) = 0 ∧ win0_0.index t (3 : Fin 4) = 0
    ∧ win0_1.index t (0 : Fin 4) = 0 ∧ win0_1.index t (1 : Fin 4) = t.val
    ∧ win0_1.index t (2 : Fin 4) = 0 ∧ win0_1.index t (3 : Fin 4) = 0 :=
  (by decide +kernel : ∀ t : Fin grid0.N, _)

theorem t_lt (t : Fin cfg0.N) : t.val < 32 := lt_of_lt_of_eq t.isLt N_0

/-- Channel a of point t's block is channel 2t + a of the array. -/
def chan (t : Fin cfg0.N) (a : Fin 2) : Fin 64 := ⟨2 * t.val + a.val, by have := t_lt t; have := a.isLt; omega⟩

/-- Entry (n, a, b, c') of the input block at point t is entry (n, 2t + a, b, c') of the argument. -/
theorem iblk_apply (c : Dev nD) (t : Fin cfg0.N) (n : Fin 64) (a : Fin 2) (b c' : Fin 128) :
    (iblk m c 0 t : Vec Ideal S64x2x128x128 .f32) (ix4 n a b c')
      = (V m c main_arg0 : S64x64x128x128.Idx → EReal) (ix4 n (chan t a) b c') := by
  obtain ⟨e0, e1, e2, e3, -⟩ := idx_facts t
  unfold iblk
  rw [View.read_apply]
  show V m c main_arg0 _ = V m c main_arg0 _
  refine congrArg (V m c main_arg0) ?_
  funext d
  apply Fin.ext
  match d with
  | ⟨0, _⟩ => show win0_0.index t (0 : Fin 4) * 64 + 1 * n.val = n.val; rw [e0]; omega
  | ⟨1, _⟩ => show win0_0.index t (1 : Fin 4) * 2 + 1 * a.val = 2 * t.val + a.val; rw [e1]; omega
  | ⟨2, _⟩ => show win0_0.index t (2 : Fin 4) * 128 + 1 * b.val = b.val; rw [e2]; omega
  | ⟨3, _⟩ => show win0_0.index t (3 : Fin 4) * 128 + 1 * c'.val = c'.val; rw [e3]; omega

/-- Where entry (n, a, b, c') of the output block at point t sits in the result: (n, 2t + a, b, c'). -/
theorem emb_out (t : Fin cfg0.N) (n : Fin 64) (a : Fin 2) (b c' : Fin 128) :
    ((cfg0.win 1).blk t).view.emb (ix4 n a b c' : S64x2x128x128.Idx) = (ix4 n (chan t a) b c' : S64x64x128x128.Idx) := by
  obtain ⟨-, -, -, -, f0, f1, f2, f3⟩ := idx_facts t
  funext d
  apply Fin.ext
  match d with
  | ⟨0, _⟩ => show win0_1.index t (0 : Fin 4) * 64 + 1 * n.val = n.val; rw [f0]; omega
  | ⟨1, _⟩ => show win0_1.index t (1 : Fin 4) * 2 + 1 * a.val = 2 * t.val + a.val; rw [f1]; omega
  | ⟨2, _⟩ => show win0_1.index t (2 : Fin 4) * 128 + 1 * b.val = b.val; rw [f2]; omega
  | ⟨3, _⟩ => show win0_1.index t (3 : Fin 4) * 128 + 1 * c'.val = c'.val; rw [f3]; omega

/-- What point t writes back is block t of the cumulative maximum of the argument. -/
theorem flushed_eq (c : Dev nD) (t : Fin cfg0.N) :
    (dats m 0 c).flushed 1 t
      = ((cfg0.win 1).blk t).view.read (Elt Ideal) (cummax0 (V m c main_arg0 : S64x64x128x128.Idx → EReal)) := by
  rw [Value.flushed1, Body.out_eq]
  refine funext fun (j : S64x2x128x128.Idx) => ?_
  obtain ⟨n, a, b, c', rfl⟩ : ∃ (n : Fin 64) (a : Fin 2) (b c' : Fin 128), j = ix4 n a b c' :=
    ⟨j 0, j 1, j 2, j 3, eq_ix4 j⟩
  show cummax0 (iblk m c 0 t : Vec Ideal S64x2x128x128 .f32) (ix4 n a b c')
    = cummax0 (V m c main_arg0 : S64x64x128x128.Idx → EReal) (((cfg0.win 1).blk t).view.emb (ix4 n a b c'))
  rw [emb_out]
  exact cummax0_block (V m c main_arg0 : S64x64x128x128.Idx → EReal) (iblk m c 0 t : Vec Ideal S64x2x128x128 .f32)
    (chan t) id id (fun i a b c' => iblk_apply m c t i a b c') n a b c'

/-- An index of the result is in point t's block iff each coordinate is in the block's range on its axis. -/
theorem mem_blk (t : Fin cfg0.N) (i : S64x64x128x128.Idx) :
    i ∈ ((cfg0.win 1).blk t).view.set ↔ ∀ a : Fin 4, win0_1.index t a * S64x2x128x128.size a ≤ (i a).val
      ∧ (i a).val < win0_1.index t a * S64x2x128x128.size a + S64x2x128x128.size a := by
  show i ∈ ((View.whole main_v0).slice (win0_1.rect t)).set ↔ _
  rw [View.set_slice_whole, Rect.mem_set_unit]
  exact Iff.rfl

/-- Every index of the result is in some point's block: channel c' belongs to point c' / 2. -/
theorem cover (i : S64x64x128x128.Idx) :
    ∃ t : Fin cfg0.N, (cfg0.win 1).flush t = true ∧ i ∈ ((cfg0.win 1).blk t).view.set := by
  have h0 : (i 0).val < 64 := (i 0).isLt
  have h1 : (i 1).val < 64 := (i 1).isLt
  have h2 : (i 2).val < 128 := (i 2).isLt
  have h3 : (i 3).val < 128 := (i 3).isLt
  have hN : cfg0.N = 32 := N_0
  obtain ⟨t, ht⟩ : ∃ t : Fin cfg0.N, t.val = (i 1).val / 2 := ⟨⟨(i 1).val / 2, by rw [hN]; omega⟩, rfl⟩
  obtain ⟨-, -, -, -, f0, f1, f2, f3⟩ := idx_facts t
  refine ⟨t, flush0_1 t, ?_⟩
  rw [mem_blk]
  intro a
  match a with
  | ⟨0, _⟩ =>
    show win0_1.index t (0 : Fin 4) * 64 ≤ (i 0).val ∧ (i 0).val < win0_1.index t (0 : Fin 4) * 64 + 64
    rw [f0]; omega
  | ⟨1, _⟩ =>
    show win0_1.index t (1 : Fin 4) * 2 ≤ (i 1).val ∧ (i 1).val < win0_1.index t (1 : Fin 4) * 2 + 2
    rw [f1]; omega
  | ⟨2, _⟩ =>
    show win0_1.index t (2 : Fin 4) * 128 ≤ (i 2).val ∧ (i 2).val < win0_1.index t (2 : Fin 4) * 128 + 128
    rw [f2]; omega
  | ⟨3, _⟩ =>
    show win0_1.index t (3 : Fin 4) * 128 ≤ (i 3).val ∧ (i 3).val < win0_1.index t (3 : Fin 4) * 128 + 128
    rw [f3]; omega

/-- The result array after the run is the cumulative maximum of the argument along axis 0. -/
theorem final (c : Dev nD) :
    (dats m 0 c).arrAt 1 cfg0.N = cummax0 (m ((c : Thread nD τ).loc main_arg0) : S64x64x128x128.Idx → EReal) :=
  (dats m 0 c).arrAt_eq_of_cover 1 (cummax0 (V m c main_arg0 : S64x64x128x128.Idx → EReal))
    (fun t _ => flushed_eq m c t) cover

/-- The kernel's run, read: the result array at the cumulative maximum of the argument, the argument unchanged. -/
theorem run : θ_run defs (onTc (τ := τ) (main (F := Ideal))) ⟨m, fun _ => 0, ρ⟩ fun r => ∀ c : Dev nD,
      r.2.mem ((c : Thread nD τ).loc main_v0) = cummax0 (m ((c : Thread nD τ).loc main_arg0) : S64x64x128x128.Idx → EReal)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KValue

end
-- ==== Proof.RefValue.lean ====
/-
  The reference's result as one function of its argument: the cumulative maximum along axis 0.

  The reference is jax.lax.cummax(x, axis=0) on x : [64, 64, 128, 128]. It prints as ONE windowed maximum: windows of
  length 64 along axis 0 (length 1 elsewhere), stride 1, 63 copies of the initial value padded in front, the initial
  value the f32 word 0xFF800000 = -inf. On the extended reals that is, at (n, c, h, w), the largest of
  x (0, c, h, w), …, x (n, c, h, w): the padding is the bottom element and never wins.
-/
import proofs.«166675_j6837587935357_2_alg».proof.Proof.Gen.ReferenceIdeal.Read
import proofs.«166675_j6837587935357_2_alg».proof.Proof.LibCumMax

noncomputable section

namespace Cert.ReferenceIdeal.RefValue

open Cert.ReferenceIdeal Cert.ReferenceIdeal.Gen Cert.ReferenceIdeal.Read Idealize.ShloMosaic Cert.LibCumMax

/-- The fold's initial value (the scalar constant, broadcast to a scalar) is minus infinity. -/
theorem init_eq : val_main_call0_v0 (F := Ideal) (Shape.Idx.first h_S_) = (⊥ : EReal) := by
  rw [val_main_call0_v0_apply, val_main_call0_cst_apply]
  exact ofBits_neg_inf

/-- The reference's result array is the cumulative maximum of its argument along axis 0. -/
theorem val_eq (x0 : S64x64x128x128.Idx → EReal) : val_main_v0 (F := Ideal) x0 = cummax0 x0 := by
  unfold val_main_v0
  exact reduceWindow_max_axis0 (lo0 := 63) rfl _ (fun _ _ => rfl) x0 _ _ h_S_ init_eq

end Cert.ReferenceIdeal.RefValue

end
-- ==== Proof.lean ====
/-
  A cumulative maximum along axis 0, computed block by block, against jax.lax.cummax(x, axis=0).

  x : f32[64, 64, 128, 128]. The kernel cuts the channel axis into 32 blocks of two channels; on each block
  [64, 2, 128, 128] it walks down the 64 rows carrying the elementwise maximum so far and stores the carried value as
  the output's row. The reference is one windowed maximum: windows of length 64 along axis 0, 63 copies of -inf padded
  in front. On the extended reals both are the same function of x: at (n, c, h, w) the largest of
  x (0, c, h, w), …, x (n, c, h, w)  (cummax0, Proof/LibCumMax.lean).
    * the reference's window at row n holds rows n - 63, …, n, the ones before row 0 being the padding -inf, which is
      the bottom element and never wins (Proof/RefValue.lean);
    * the kernel's carried value after row k is the running maximum of rows 0, …, k, one column at a time
      (Proof/Body.lean); the blocks keep every column whole and together fill the result (Proof/KValue.lean).
  The only law used is that a maximum of finitely many extended reals does not depend on how it is folded; it holds at
  the infinities too, so the precondition (finite inputs) is not opened. The idealization rewrote nothing (every
  operation is a load, a store, a reshape or a maximum), so the kernel and its idealized form are the same text.
-/
import proofs.«166675_j6837587935357_2_alg».proof.Defs
import proofs.«166675_j6837587935357_2_alg».proof.Proof.Gen.Kernel
import proofs.«166675_j6837587935357_2_alg».proof.Proof.Gen.Kernel.Skeleton
import proofs.«166675_j6837587935357_2_alg».proof.Proof.Gen.Kernel.Launch
import proofs.«166675_j6837587935357_2_alg».proof.Proof.Gen.Kernel.Points
import proofs.«166675_j6837587935357_2_alg».proof.Proof.Gen.Kernel.Frame
import proofs.«166675_j6837587935357_2_alg».proof.Proof.Gen.KernelIdeal
import proofs.«166675_j6837587935357_2_alg».proof.Proof.Gen.KernelIdeal.Skeleton
import proofs.«166675_j6837587935357_2_alg».proof.Proof.Gen.KernelIdeal.Launch
import proofs.«166675_j6837587935357_2_alg».proof.Proof.Gen.KernelIdeal.Points
import proofs.«166675_j6837587935357_2_alg».proof.Proof.Gen.KernelIdeal.Frame
import proofs.«166675_j6837587935357_2_alg».proof.Proof.Gen.KernelIdeal.Value
import proofs.«166675_j6837587935357_2_alg».proof.Proof.Gen.ReferenceIdeal
import proofs.«166675_j6837587935357_2_alg».proof.Proof.Gen.ReferenceIdeal.Run
import proofs.«166675_j6837587935357_2_alg».proof.Proof.Gen.ReferenceIdeal.Read
import proofs.«166675_j6837587935357_2_alg».proof.Proof.Gen.Pre_finite_inputs
import proofs.«166675_j6837587935357_2_alg».proof.Proof.KValue
import proofs.«166675_j6837587935357_2_alg».proof.Proof.RefValue
import Idealize.ShloMosaic.Adequacy
import Idealize.ShloMosaic.Init

noncomputable section

namespace Cert.Proof

open Idealize.ShloMosaic Idealize.SL.Sem

/-- The kernel as printed runs, faults nowhere, and leaves its argument as it was. -/
theorem frame_kernel : Cert.frame_Kernel := fun m ρ _ => Cert.Kernel.Gen.frame m ρ

/-- So does its idealized form. -/
theorem frame_kernelIdeal : Cert.frame_KernelIdeal := fun m ρ _ => Cert.KernelIdeal.Gen.frame m ρ

/-- The reference runs and leaves its argument as it was: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both programs end with the cumulative maximum of the argument along axis 0 in their result. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.val_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
